-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000x2 : Shape := ⟨2, ![800000, 2]⟩
abbrev S50000 : Shape := ⟨1, ![50000]⟩
abbrev S96x192 : Shape := ⟨2, ![96, 192]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x192 : S_.BroadcastsInDim S96x192 (![] : Fin 0 → Fin S96x192.rank)
  reducesTo_S96x192_S_d0_1 : S96x192.ReducesTo [0, 1] S_

variable [Facts]

def fn {F : FTy → Type} [FloatOps F] (main_arg0 : FVec F S50000x96 .f32) (main_arg1 : IVec S800000x2 32) (main_arg2 : IVec S50000 32) (main_arg3 : FVec F S96x192 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x192 .f32 := Host.absf main_arg3
  let main_cst_0 : FVec F S_ .f32 := constant S_ .f32 0x7F800000#32
  let main_v5 : FVec F S96x192 .f32 := broadcastInDim S96x192 ![] bcast_S_S96x192 main_cst_0
  let main_v6 : IVec S96x192 1 := cmpf .olt main_v4 main_v5
  let main_c_1 : IVec S_ 1 := constantI S_ 1 1#1
  let main_v7 : IVec S_ 1 := (fun x v => Host.reduce IntOp.andi x v reducesTo_S96x192_S_d0_1 h_S_) main_v6 main_c_1
  let main_v8 : IVec S_ 1 := andi main_v3 main_v7
  main_v8
-- ==== Kernel.lean ====
abbrev S50000x96 : Shape := ⟨2, ![50000, 96]⟩
abbrev S800000x2 : Shape := ⟨2, ![800000, 2]⟩
abbrev S50000 : Shape := ⟨1, ![50000]⟩
abbrev S96x192 : Shape := ⟨2, ![96, 192]⟩
abbrev S800000x1 : Shape := ⟨2, ![800000, 1]⟩
abbrev S800000 : Shape := ⟨1, ![800000]⟩
abbrev S_ : Shape := ⟨0, ![]⟩
abbrev S800000x96 : Shape := ⟨2, ![800000, 96]⟩
abbrev S50000x1 : Shape := ⟨2, ![50000, 1]⟩
abbrev S192x96 : Shape := ⟨2, ![192, 96]⟩
abbrev S96x96 : Shape := ⟨2, ![96, 96]⟩
abbrev S5000x96 : Shape := ⟨2, ![5000, 96]⟩
abbrev S5000x1 : Shape := ⟨2, ![5000, 1]⟩
abbrev S5000 : Shape := ⟨1, ![5000]⟩

abbrev nBuf : Space → Nat
  | .hbm => 37
  | .vmem => 10
  | .smem => 0
  | _ => 0

abbrev bufTy : (tb : Table) → Fin (tcTables nBuf tb) → BufTy
  | .hbm, ⟨0, _⟩ => ⟨S50000x96, .f32⟩
  | .hbm, ⟨1, _⟩ => ⟨S800000x2, .i32⟩
  | .hbm, ⟨2, _⟩ => ⟨S50000, .i32⟩
  | .hbm, ⟨3, _⟩ => ⟨S96x192, .f32⟩
  | .hbm, ⟨4, _⟩ => ⟨S800000x1, .i32⟩
  | .hbm, ⟨5, _⟩ => ⟨S800000, .i32⟩
  | .hbm, ⟨6, _⟩ => ⟨S800000x1, .i32⟩
  | .hbm, ⟨7, _⟩ => ⟨S800000, .i32⟩
  | .hbm, ⟨8, _⟩ => ⟨S50000x96, .bf16⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x96, .bf16⟩
  | .hbm, ⟨18, _⟩ => ⟨S800000x96, .f32⟩
  | .hbm, ⟨19, _⟩ => ⟨S_, .f32⟩
  | .hbm, ⟨20, _⟩ => ⟨S50000x96, .f32⟩
  | .hbm, ⟨21, _⟩ => ⟨S800000x1, .i32⟩
  | .hbm, ⟨22, _⟩ => ⟨S50000x96, .f32⟩
  | .hbm, ⟨23, _⟩ => ⟨S_, .i32⟩
  | .hbm, ⟨24, _⟩ => ⟨S_, .i32⟩
  | .hbm, ⟨25, _⟩ => ⟨S50000, .i32⟩
  | .hbm, ⟨26, _⟩ => ⟨S50000, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S192x96, .f32⟩
  | .hbm, ⟨34, _⟩ => ⟨S96x96, .f32⟩
  | .hbm, ⟨35, _⟩ => ⟨S96x96, .f32⟩
  | .hbm, ⟨36, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S5000x1, .f32⟩
  | .local _ .vmem, ⟨5, _⟩ => ⟨S5000x1, .f32⟩
  | .local _ .vmem, ⟨6, _⟩ => ⟨S96x96, .f32⟩
  | .local _ .vmem, ⟨7, _⟩ => ⟨S96x96, .f32⟩
  | .local _ .vmem, ⟨8, _⟩ => ⟨S5000x96, .f32⟩
  | .local _ .vmem, ⟨9, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  shapeCasts_S50000_S50000x1 : S50000.ShapeCasts S50000x1
  transposes_S96x192_S192x96_1_0 : S96x192.Transposes [1, 0] S192x96
  slices_S192x96_S96x96_0_0 : S192x96.Slices ![0, 0] S96x96
  slices_S192x96_S96x96_96_0 : S192x96.Slices ![96, 0] S96x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  reduces_S5000x96_S5000 : S5000x96.Reduces [1] S5000
  shapeCasts_S5000_S5000x1 : S5000.ShapeCasts S5000x1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_v15) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x96 : Shape := ⟨2, ![50000, 96]⟩
abbrev S800000x2 : Shape := ⟨2, ![800000, 2]⟩
abbrev S50000 : Shape := ⟨1, ![50000]⟩
abbrev S96x192 : Shape := ⟨2, ![96, 192]⟩
abbrev S800000x1 : Shape := ⟨2, ![800000, 1]⟩
abbrev S800000 : Shape := ⟨1, ![800000]⟩
abbrev S_ : Shape := ⟨0, ![]⟩
abbrev S800000x96 : Shape := ⟨2, ![800000, 96]⟩
abbrev S50000x1 : Shape := ⟨2, ![50000, 1]⟩
abbrev S50000x192 : Shape := ⟨2, ![50000, 192]⟩
abbrev S192x96 : Shape := ⟨2, ![192, 96]⟩

abbrev nBuf : Space → Nat
  | .hbm => 49
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000x2, .i32⟩
  | .hbm, ⟨2, _⟩ => ⟨S50000, .i32⟩
  | .hbm, ⟨3, _⟩ => ⟨S96x192, .f32⟩
  | .hbm, ⟨4, _⟩ => ⟨S800000x1, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x96, .f32⟩
  | .hbm, ⟨15, _⟩ => ⟨S800000x1, .i32⟩
  | .hbm, ⟨16, _⟩ => ⟨S800000, .i32⟩
  | .hbm, ⟨17, _⟩ => ⟨S_, .f32⟩
  | .hbm, ⟨18, _⟩ => ⟨S50000x96, .f32⟩
  | .hbm, ⟨19, _⟩ => ⟨S800000x1, .i32⟩
  | .hbm, ⟨20, _⟩ => ⟨S50000x96, .f32⟩
  | .hbm, ⟨21, _⟩ => ⟨S_, .i32⟩
  | .hbm, ⟨22, _⟩ => ⟨S_, .i32⟩
  | .hbm, ⟨23, _⟩ => ⟨S50000, .i32⟩
  | .hbm, ⟨24, _⟩ => ⟨S50000, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x96, .f32⟩
  | .hbm, ⟨32, _⟩ => ⟨S50000x96, .f32⟩
  | .hbm, ⟨33, _⟩ => ⟨S50000x192, .f32⟩
  | .hbm, ⟨34, _⟩ => ⟨S192x96, .f32⟩
  | .hbm, ⟨35, _⟩ => ⟨S50000x96, .f32⟩
  | .hbm, ⟨36, _⟩ => ⟨S_, .f32⟩
  | .hbm, ⟨37, _⟩ => ⟨S50000x96, .f32⟩
  | .hbm, ⟨38, _⟩ => ⟨S50000x96, .f32⟩
  | .hbm, ⟨39, _⟩ => ⟨S50000x96, .f32⟩
  | .hbm, ⟨40, _⟩ => ⟨S_, .f32⟩
  | .hbm, ⟨41, _⟩ => ⟨S50000, .f32⟩
  | .hbm, ⟨42, _⟩ => ⟨S50000x1, .f32⟩
  | .hbm, ⟨43, _⟩ => ⟨S50000x1, .f32⟩
  | .hbm, ⟨44, _⟩ => ⟨S_, .f32⟩
  | .hbm, ⟨45, _⟩ => ⟨S50000x1, .f32⟩
  | .hbm, ⟨46, _⟩ => ⟨S50000x1, .f32⟩
  | .hbm, ⟨47, _⟩ => ⟨S50000x96, .f32⟩
  | .hbm, ⟨48, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call1_cst : Ref sig .tc := ⟨.hbm, 36, rfl⟩
abbrev main_call1_v0 : Ref sig .tc := ⟨.hbm, 37, rfl⟩
abbrev main_v25 : Ref sig .tc := ⟨.hbm, 38, rfl⟩
abbrev main_call2_v0 : Ref sig .tc := ⟨.hbm, 39, rfl⟩
abbrev main_call2_cst : Ref sig .tc := ⟨.hbm, 40, rfl⟩
abbrev main_call2_v1 : Ref sig .tc := ⟨.hbm, 41, rfl⟩
abbrev main_call2_v2 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S800000x2_S800000x1_0_1 : S800000x2.Slices ![0, 1] S800000x1
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  concatenates_S50000x96_S50000x96_S50000x192_d1 : Shape.Concatenates [S50000x96, S50000x96] S50000x192 1
  transposes_S96x192_S192x96_1_0 : S96x192.Transposes [1, 0] S192x96
  reducesTo_S50000x96_S50000_d1 : S50000x96.ReducesTo [1] S50000
  h_S_ : 0 < S_.numel
  bcast_S_S50000x1 : S_.BroadcastsInDim S50000x1 (![] : Fin 0 → Fin S50000x1.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x192_S192x96_S50000x96_1_0_0_1_n_n_wf : DotDims.WF S50000x192 S192x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x192_S192x96_S50000x96_1_0_0_1_n_n : DotDims S50000x192 S192x96 S50000x96 where
  lhsContracting := [1]
  rhsContracting := [0]
  lhsNonContracting := [0]
  rhsNonContracting := [1]
  lhsBatch := []
  rhsBatch := []
  wf := dot_S50000x192_S192x96_S50000x96_1_0_0_1_n_n_wf

class Facts : Prop extends Facts₀ where

variable [Facts]
-- ==== Proof.Spec.lean ====
/-
  The layer's result as one function of four arrays, and the one algebraic law the two programs differ by.

  For a node n with aggregated neighbour features A(n, ·) ∈ [96], reciprocal clipped degree v(n), own features
  X(n, ·) ∈ [96] and weights W ∈ [96, 192], the pre-activation at output feature j is

      pre(n, j) = Σ_{k<96} (A(n,k) · v(n)) · W(j, k)  +  Σ_{k<96} X(n,k) · W(j, 96 + k),

  which is the product of the concatenated row [A(n,·)·v(n), X(n,·)] ∈ [192] with row j of W, the sum over the 192
  positions split at 96. The row is then rectified and divided by the larger of its Euclidean norm and a fixed
  positive threshold:

      r(j) = max(pre(n, j), 0),    out(n, j) = r(j) / max(√(Σ_q r(q)²), ε).

  Everything is on the extended reals; the split of the sum holds in any commutative additive monoid, so no
  finiteness of the entries is used. The zero and ε stay as the float words both programs print.
-/
import Idealize.ShloMosaic.PureOps.Ideal.Laws
import Idealize.ShloMosaic.Lib.ValueIdx

noncomputable section

open scoped BigOperators

namespace Cert.Sage

open Idealize.ShloMosaic Idealize.ShloMosaic.ValueIdx

/-- Position k of the first half of a 192-long row. -/
abbrev lo (k : Fin 96) : Fin 192 := ⟨k.val, by have := k.isLt; omega⟩
/-- Position 96 + k, in the second half. -/
abbrev hi (k : Fin 96) : Fin 192 := ⟨96 + k.val, by have := k.isLt; omega⟩

/-- A sum over 192 positions is the sum over the first 96 plus the sum over the last 96. -/
theorem sum_split {M : Type*} [AddCommMonoid M] (f : Fin 192 → M) :
    ∑ k : Fin 192, f k = ∑ k : Fin 96, f (lo k) + ∑ k : Fin 96, f (hi k) := by
  have h := Fin.sum_univ_add (M := M) (a := 96) (b := 96) (fun k : Fin (96 + 96) => f ⟨k.val, k.isLt⟩)
  refine h.trans (congrArg₂ (· + ·) (Finset.sum_congr rfl fun k _ => congrArg f (Fin.ext rfl))
    (Finset.sum_congr rfl fun k _ => congrArg f (Fin.ext rfl)))

/-- A row rectified and divided by the larger of its Euclidean norm and the threshold ε (the word 0x2B8CBCCC). -/
def rowNorm (z : Fin 96 → EReal) (j : Fin 96) : EReal :=
  Ideal.div (max (z j) (Ideal.ofBits .f32 0x00000000#32))
    (max (Ideal.sqrt (∑ q : Fin 96, max (z q) (Ideal.ofBits .f32 0x00000000#32) * max (z q) (Ideal.ofBits .f32 0x00000000#32)))
      (Ideal.ofBits .f32 0x2B8CBCCC#32))

/-- The pre-activation of node n at output feature j. -/
def pre (A : (⟨2, ![50000, 96]⟩ : Shape).Idx → EReal) (v : (⟨1, ![50000]⟩ : Shape).Idx → EReal)
    (X : (⟨2, ![50000, 96]⟩ : Shape).Idx → EReal) (W : (⟨2, ![96, 192]⟩ : Shape).Idx → EReal)
    (n : Fin 50000) (j : Fin 96) : EReal :=
  ∑ k : Fin 96, (A (ix2 n k) * v (ix1 n)) * W (ix2 j (lo k)) + ∑ k : Fin 96, X (ix2 n k) * W (ix2 j (hi k))

/-- The layer's result: every node's pre-activation row, normalised. -/
def out (A : (⟨2, ![50000, 96]⟩ : Shape).Idx → EReal) (v : (⟨1, ![50000]⟩ : Shape).Idx → EReal)
    (X : (⟨2, ![50000, 96]⟩ : Shape).Idx → EReal) (W : (⟨2, ![96, 192]⟩ : Shape).Idx → EReal) :
    (⟨2, ![50000, 96]⟩ : Shape).Idx → EReal :=
  fun i => rowNorm (pre A v X W (i 0)) (i 1)

theorem out_apply (A : (⟨2, ![50000, 96]⟩ : Shape).Idx → EReal) (v : (⟨1, ![50000]⟩ : Shape).Idx → EReal)
    (X : (⟨2, ![50000, 96]⟩ : Shape).Idx → EReal) (W : (⟨2, ![96, 192]⟩ : Shape).Idx → EReal) (n : Fin 50000) (j : Fin 96) :
    out A v X W (ix2 n j) = rowNorm (pre A v X W n) j := rfl

end Cert.Sage

end
-- ==== Proof.RefValue.lean ====
/-
  The reference program's result is the layer's specification.

  The reference forms, for every node n, the 192-long row

      cat(n, ·) = [ A(n, ·) · v(n) ,  X(n, ·) ]

  (the aggregated neighbour features scaled by the reciprocal clipped degree, then the node's own features), multiplies
  it with the transposed weights, rectifies, and divides each row by the larger of its Euclidean norm and ε.
  Read at an output index (n, j) the product is one sum over the 192 positions,

      Σ_{k<192} cat(n, k) · W(j, k),

  and the only step that is not a reading of one operation at an index is splitting that sum at 96: on the first 96
  positions cat(n, k) = A(n, k) · v(n), on the last 96 it is X(n, k − 96). That gives the two sums of Cert.Sage.pre;
  the rectification, the row's sum of squares (started from the zero word, which is 0), the root, the larger of it and
  ε, and the quotient are Cert.Sage.rowNorm term for term.

  A (the scatter of the gathered rows) and v (the reciprocal of the clipped degree) are never opened: they enter only
  as the two arrays the specification is stated over.
-/
import proofs.«159012_j16415365006092_2_alg».proof.Proof.Gen.ReferenceIdeal.Read
import proofs.«159012_j16415365006092_2_alg».proof.Proof.Spec

noncomputable section

open scoped BigOperators

namespace Cert.Sage.Ref

open Idealize.ShloMosaic Idealize.ShloMosaic.ValueIdx

section Stages

open Cert.ReferenceIdeal Cert.ReferenceIdeal.Gen Cert.ReferenceIdeal.Read

variable (x0 : (⟨S50000x96, .f32⟩ : BufTy).Contents (Elt Ideal)) (x1 : (⟨S800000x2, .i32⟩ : BufTy).Contents (Elt Ideal))
  (x2 : (⟨S50000, .i32⟩ : BufTy).Contents (Elt Ideal)) (x3 : (⟨S96x192, .f32⟩ : BufTy).Contents (Elt Ideal))

/-- The scaled aggregate at (n, k): A(n, k) · v(n). The degree's reciprocal reaches column k through two
    broadcasts, [50000] → [50000, 1] → [50000, 96], both of which keep the row coordinate n. -/
theorem scaled_apply (n : Fin 50000) (k : Fin 96) :
    val_main_v21 (F := Ideal) x0 x1 x2 (ix2 n k)
      = val_main_v13 (F := Ideal) x0 x1 (ix2 n k) * val_main_v18 (F := Ideal) x2 (ix1 n) := by
  rw [val_main_v21_apply, val_main_v20_apply, val_main_v19_apply]
  have e : idx_main_v19 (idx_main_v20 (ix2 n k)) = (ix1 n : S50000.Idx) :=
    funext fun a => Fin.ext (by match a with | ⟨0, _⟩ => rfl)
  rw [e]
  rfl

/-- The concatenated row at a position k < 96 of its first half is the scaled aggregate: cat(n, k) = A(n, k) · v(n).
    Position k lies inside the first piece (whose extent along the joined axis is 96), at the same coordinates. -/
theorem cat_lo (n : Fin 50000) (j : Fin 96) (k : Fin 96) :
    val_main_v22 (F := Ideal) x0 x1 x2 (lidx_main_v24 (ix2 n j) (lo k))
      = val_main_v13 (F := Ideal) x0 x1 (ix2 n k) * val_main_v18 (F := Ideal) x2 (ix1 n) := by
  unfold val_main_v22
  refine (concatenate_pair_apply_left 1 _ _ concatenates_S50000x96_S50000x96_S50000x192_d1
    (lidx_main_v24 (ix2 n j) (lo k)) rfl (ix2 n k) (fun b => ?_)).trans (scaled_apply x0 x1 x2 n k)
  match b with
  | ⟨0, _⟩ => rfl
  | ⟨1, _⟩ => rfl

/-- The concatenated row at a position 96 + k of its second half is the node's own feature: cat(n, 96 + k) = X(n, k).
    Off the joined axis the coordinates agree; along it, k plus the first piece's extent 96 is the position. -/
theorem cat_hi (n : Fin 50000) (j : Fin 96) (k : Fin 96) :
    val_main_v22 (F := Ideal) x0 x1 x2 (lidx_main_v24 (ix2 n j) (hi k)) = x0 (ix2 n k) := by
  unfold val_main_v22
  refine concatenate_pair_apply_right 1 _ _ concatenates_S50000x96_S50000x96_S50000x192_d1
    (lidx_main_v24 (ix2 n j) (hi k)) rfl rfl (ix2 n k) (fun b => ?_) ?_
  · match b with
    | ⟨0, _⟩ => exact fun _ => rfl
    | ⟨1, _⟩ => exact fun h => absurd rfl h
  · show k.val + 96 = 96 + k.val
    omega

/-- The transposed weights at (k, j) are W(j, k). -/
theorem weight_apply (n : Fin 50000) (j : Fin 96) (k : Fin 192) :
    val_main_v23 (F := Ideal) x3 (ridx_main_v24 (ix2 n j) k) = x3 (ix2 j k) := by
  rw [val_main_v23_apply]
  exact congrArg x3 (funext fun a => Fin.ext (by match a with | ⟨0, _⟩ => rfl | ⟨1, _⟩ => rfl))

/-- The product at (n, j) is the pre-activation: Σ_{k<192} cat(n, k) · W(j, k), split at 96, is
    Σ_{k<96} (A(n, k) · v(n)) · W(j, k) + Σ_{k<96} X(n, k) · W(j, 96 + k). -/
theorem pre_eq (n : Fin 50000) (j : Fin 96) :
    val_main_v24 (F := Ideal) x0 x1 x2 x3 (ix2 n j)
      = Cert.Sage.pre (val_main_v13 (F := Ideal) x0 x1) (val_main_v18 (F := Ideal) x2) x0 x3 n j := by
  rw [val_main_v24_apply, Cert.Sage.sum_split]
  unfold Cert.Sage.pre
  refine congrArg₂ (· + ·) (Finset.sum_congr rfl fun k _ => ?_) (Finset.sum_congr rfl fun k _ => ?_)
  · rw [cat_lo, weight_apply]
  · rw [cat_hi, weight_apply]

/-- The rectified entry at (n, q): the larger of the pre-activation and the zero word. -/
theorem relu_eq (n : Fin 50000) (q : Fin 96) :
    val_main_v25 (F := Ideal) x0 x1 x2 x3 (ix2 n q)
      = max (Cert.Sage.pre (val_main_v13 (F := Ideal) x0 x1) (val_main_v18 (F := Ideal) x2) x0 x3 n q)
          (Ideal.ofBits .f32 0x00000000#32) := by
  rw [val_main_v25_apply, pre_eq, val_main_call1_v0_apply, val_main_call1_cst_apply]
  rfl

/-- Row n's sum of squares. The sum starts from the zero word, which is the extended real 0, so it drops out. -/
theorem sumsq_eq (n : Fin 50000) :
    val_main_call2_v1 (F := Ideal) x0 x1 x2 x3 (ix1 n)
      = ∑ q : Fin 96,
          max (Cert.Sage.pre (val_main_v13 (F := Ideal) x0 x1) (val_main_v18 (F := Ideal) x2) x0 x3 n q)
              (Ideal.ofBits .f32 0x00000000#32)
          * max (Cert.Sage.pre (val_main_v13 (F := Ideal) x0 x1) (val_main_v18 (F := Ideal) x2) x0 x3 n q)
              (Ideal.ofBits .f32 0x00000000#32) := by
  have h0 : (val_main_call2_cst (F := Ideal)) (Shape.Idx.first h_S_) = 0 := Ideal.ofBits_zero_f32
  refine (val_main_call2_v1_apply x0 x1 x2 x3 (ix1 n)).trans ?_
  rw [h0, zero_add]
  refine Finset.sum_congr rfl fun q _ => ?_
  have e : idx_main_call2_v1 (ix1 n) q = (ix2 n q : S50000x96.Idx) :=
    funext fun a => Fin.ext (by match a with | ⟨0, _⟩ => rfl | ⟨1, _⟩ => rfl)
  rw [e, val_main_call2_v0_apply, relu_eq]
  rfl

end Stages

open Cert.ReferenceIdeal Cert.ReferenceIdeal.Read in
/-- The reference's result is the specification, over A = the scattered aggregate and v = the reciprocal clipped
    degree. At (n, j): the numerator is the rectified entry; the denominator is, broadcast along the row, the larger
    of the root of row n's sum of squares and ε. -/
theorem ref_eq (x0 : (⟨S50000x96, .f32⟩ : BufTy).Contents (Elt Ideal)) (x1 : (⟨S800000x2, .i32⟩ : BufTy).Contents (Elt Ideal))
    (x2 : (⟨S50000, .i32⟩ : BufTy).Contents (Elt Ideal)) (x3 : (⟨S96x192, .f32⟩ : BufTy).Contents (Elt Ideal)) :
    val_main_v30 (F := Ideal) x0 x1 x2 x3
      = Cert.Sage.out (val_main_v13 (F := Ideal) x0 x1) (val_main_v18 (F := Ideal) x2) x0 x3 := by
  funext i
  obtain ⟨n, j, rfl⟩ : ∃ (n : Fin 50000) (j : Fin 96), i = ix2 n j := ⟨i 0, i 1, eq_ix2 i⟩
  rw [Cert.Sage.out_apply, val_main_v30_apply, relu_eq, val_main_v29_apply, val_main_v28_apply, val_main_v26_apply,
    val_main_call2_v2_apply, val_main_v27_apply, val_main_cst_3_apply]
  have e : idx_main_call2_v2 (idx_main_v29 (ix2 n j)) = (ix1 n : S50000.Idx) :=
    funext fun a => Fin.ext (by match a with | ⟨0, _⟩ => rfl)
  rw [e, sumsq_eq]
  -- both sides are now the same quotient, once the four operations are read as the extended reals' own
  unfold Cert.Sage.rowNorm
  rw [Ideal.hostDivf_def, Ideal.maximumf_def, Ideal.hostUnary_sqrt_def, Ideal.ofBits_def]

end Cert.Sage.Ref

end
-- ==== Proof.Entry.lean ====
/-
  What the kernel's region finds in its five operand arrays, in terms of the program's arguments.

  Before the region the host computes: the aggregated features (a gather of the source rows of the features, rounded to
  bf16 and widened again, scatter-added into the destination rows), the reciprocal of the degree clipped below at one,
  laid out as a column [50000, 1], and the two halves of the transposed weights, rows 0..95 and 96..191 of Wᵀ.
  On the extended reals a change of float format is the identity, so the aggregated features are the reference's own
  aggregation term, and the reciprocal column is the reference's reciprocal vector read down its one column. The two
  weight halves at (k, j) are W (j, k) and W (j, 96 + k).
-/
import proofs.«159012_j16415365006092_2_alg».proof.Proof.Gen.KernelIdeal.Frame
import proofs.«159012_j16415365006092_2_alg».proof.Proof.Gen.ReferenceIdeal.Read
import proofs.«159012_j16415365006092_2_alg».proof.Proof.Spec
import Idealize.ShloMosaic.Lib.StableHlo.Run
import Idealize.ShloMosaic.Lib.Pipeline.Value

set_option maxRecDepth 16384

noncomputable section

open scoped BigOperators

namespace Cert.Sage.Entry

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The aggregated features the region finds are the reference's aggregation of the same two arguments: the rounding to
    bf16 before the gather and the widening after it are the identity on the extended reals. -/
theorem agg_eq (c : Dev nD) :
    (V m c main_v15 : S50000x96.Idx → EReal)
      = Cert.ReferenceIdeal.Read.val_main_v13 (F := Ideal) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp
  rfl

/-- The reciprocal column is the reference's reciprocal vector, cast from [50000] to [50000, 1]. -/
theorem inv_term (c : Dev nD) :
    (V m c main_v21 : S50000x1.Idx → EReal)
      = shapeCast S50000x1 (Cert.ReferenceIdeal.Read.val_main_v18 (F := Ideal) (m ((c : Thread nD τ).loc main_arg2))) shapeCasts_S50000_S50000x1 := by
  dsimp only [V]
  simp only [hostOps0, hostOps0_1, hostOps0_2, List.flatten_cons, List.flatten_nil, List.append_nil, List.cons_append, List.nil_append]
  after_results_simp
  rfl

/-- Its entry in row n is the reciprocal of node n. -/
theorem inv_apply (c : Dev nD) (n : Fin 50000) :
    (V m c main_v21 : S50000x1.Idx → EReal) (ix2 n (0 : Fin 1))
      = Cert.ReferenceIdeal.Read.val_main_v18 (F := Ideal) (m ((c : Thread nD τ).loc main_arg2)) (ix1 n) := by
  rw [inv_term]
  exact shapeCast_apply _ shapeCasts_S50000_S50000x1 (ix2 n (0 : Fin 1)) (ix1 n)
    (by rw [Shape.rowMajor_val_two, Shape.rowMajor_val_one]; show n.val = n.val * 1 + 0; omega)

/-- The first weight half: rows 0..95 of the transposed weights. -/
theorem wt1_term (c : Dev nD) :
    (V m c main_v23 : S96x96.Idx → EReal)
      = extractStridedSlice S96x96 ![0, 0] (transpose S192x96 [1, 0] (m ((c : Thread nD τ).loc main_arg3)) transposes_S96x192_S192x96_1_0) slices_S192x96_S96x96_0_0 := by
  dsimp only [V]
  simp only [hostOps0, hostOps0_1, hostOps0_2, List.flatten_cons, List.flatten_nil, List.append_nil, List.cons_append, List.nil_append]
  after_results_simp

/-- The second weight half: rows 96..191 of the transposed weights. -/
theorem wt2_term (c : Dev nD) :
    (V m c main_v24 : S96x96.Idx → EReal)
      = extractStridedSlice S96x96 ![96, 0] (transpose S192x96 [1, 0] (m ((c : Thread nD τ).loc main_arg3)) transposes_S96x192_S192x96_1_0) slices_S192x96_S96x96_96_0 := by
  dsimp only [V]
  simp only [hostOps0, hostOps0_1, hostOps0_2, List.flatten_cons, List.flatten_nil, List.append_nil, List.cons_append, List.nil_append]
  after_results_simp

/-- Entry (k, j) of a slice of the transposed weights starting at row o is W (j, o + k). -/
theorem slice_transpose_apply (W : S96x192.Idx → EReal) (o : Nat) (h : S192x96.Slices ![o, 0] S96x96) (k j : Fin 96) (q : Fin 192)
    (hq : q.val = o + k.val) :
    extractStridedSlice S96x96 ![o, 0] (transpose S192x96 [1, 0] W transposes_S96x192_S192x96_1_0) h (ix2 k j) = W (ix2 j q) := by
  refine (extractStridedSlice_apply ![o, 0] _ h (ix2 k j) (ix2 q j) (fun a => ?_)).trans ?_
  · match a with
    | ⟨0, _⟩ => exact hq
    | ⟨1, _⟩ => show j.val = 0 + j.val; omega
  · exact transpose_apply [1, 0] W transposes_S96x192_S192x96_1_0 (ix2 q j) (ix2 j q) (fun b => match b with
      | ⟨0, _⟩ => rfl
      | ⟨1, _⟩ => rfl)

theorem wt1_apply (c : Dev nD) (k j : Fin 96) :
    (V m c main_v23 : S96x96.Idx → EReal) (ix2 k j) = (m ((c : Thread nD τ).loc main_arg3) : S96x192.Idx → EReal) (ix2 j (Cert.Sage.lo k)) := by
  rw [wt1_term]
  exact slice_transpose_apply _ 0 slices_S192x96_S96x96_0_0 k j (Cert.Sage.lo k) (by show k.val = 0 + k.val; omega)

theorem wt2_apply (c : Dev nD) (k j : Fin 96) :
    (V m c main_v24 : S96x96.Idx → EReal) (ix2 k j) = (m ((c : Thread nD τ).loc main_arg3) : S96x192.Idx → EReal) (ix2 j (Cert.Sage.hi k)) := by
  rw [wt2_term]
  exact slice_transpose_apply _ 96 slices_S192x96_S96x96_96_0 k j (Cert.Sage.hi k) rfl

end Cert.Sage.Entry

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.Payload.lean ====
/-
  One block of the layer, read at one entry.

  A block holds 5000 nodes. For node r of the block, with aggregated neighbour features a(r, ·) ∈ [96], reciprocal
  degree s(r, 0), own features x(r, ·) ∈ [96] and the two 96 × 96 halves P and Q of the transposed weights, the body
  forms the pre-activation row

      z(q) = Σ_{k<96} (a(r,k) · s(r,0)) · P(k,q)  +  Σ_{k<96} x(r,k) · Q(k,q),

  rectifies it, y(q) = max(z(q), 0), sums the squares of y over the 96 lanes, and stores

      y(j) / max(√(Σ_q y(q)²), ε)

  at (r, j). That is the row normalisation of z at j, with nothing to reassociate: every step below reads one
  operation of the body at an index on the extended reals. There a change of float format is the identity, a product
  into a zero accumulator is the plain sum of products, and a reshape to the same shape changes nothing, so the proof
  is bookkeeping of which index each layout operation reads.
-/
import proofs.«159012_j16415365006092_2_alg».proof.Proof.Gen.KernelIdeal.Skeleton
import proofs.«159012_j16415365006092_2_alg».proof.Proof.Spec
import proofs.«159012_j16415365006092_2_alg».proof.Proof.LibPlainDot
import Idealize.ShloMosaic.Lib.Pipeline.Value
import Idealize.ShloMosaic.PureOps.Ideal.Laws

noncomputable section

open scoped BigOperators

namespace Cert.Sage.Body

open Idealize.ShloMosaic Idealize.ShloMosaic.ValueIdx
open Cert.KernelIdeal Cert.KernelIdeal.Gen

/-! ## The layout operations of the body, each read at an index -/

/-- The scaled operand. The column s ∈ [5000, 1] is spread along the 96 lanes and multiplied into x ∈ [5000, 96]
    entrywise, so entry (r, k) is x(r, k) · s(r, 0): a spread column reads coordinate 0 on its unit axis and the row
    coordinate unchanged. The two reshapes to the same shape are the identity. -/
theorem scaled_apply (x : FVec Ideal S5000x96 .f32) (s : FVec Ideal S5000x1 .f32)
    (hx : S5000x96.ShapeCasts S5000x96) (hs : S5000x1.ShapeCasts S5000x1) (hb : S5000x1.Broadcasts S5000x96)
    (r : Fin 5000) (k : Fin 96) :
    mulf (shapeCast S5000x96 x hx) (broadcastTo S5000x96 (shapeCast S5000x1 s hs) hb) (ix2 r k)
      = x (ix2 r k) * s (ix2 r (0 : Fin 1)) := by
  rw [shapeCast_self, shapeCast_self]
  refine (mulf_apply x _ (ix2 r k)).trans (congrArg (fun c : EReal => x (ix2 r k) * c) ?_)
  -- the spread column at (r, k) is the column at (r, 0): axis 0 has extent 5000 ≠ 1 and keeps r, axis 1 has extent 1
  exact broadcastTo_apply s hb (ix2 r k) (ix2 r (0 : Fin 1)) fun a => by
    match a with
    | ⟨0, _⟩ => rfl
    | ⟨1, _⟩ => rfl

/-- One half of the product. With a ∈ [5000, 96] and w ∈ [96, 96], both passed through a narrowing of the format (the
    identity on the extended reals), the product into the zero accumulator has entry (r, q) = Σ_k a(r, k) · w(k, q).
    The product's dimension numbers contract axis 1 of the left operand with axis 0 of the right one and have no batch
    axis, which are the plain ones, so the general statement for the plain product applies as it stands. -/
theorem half_apply (a : FVec Ideal S5000x96 .f32) (w : FVec Ideal S96x96 .f32)
    (hw : S96x96.ShapeCasts S96x96) (hlt : FTy.bits .bf16 < FTy.bits .f32) (r : Fin 5000) (q : Fin 96) :
    matmul dot_S5000x96_S96x96_S5000x96_1_0_0_1_n_n none (truncf .bf16 a hlt)
        (truncf .bf16 (shapeCast S96x96 w hw) hlt) (constant S5000x96 .f32 0x00000000#32) (ix2 r q)
      = ∑ k : Fin 96, a (ix2 r k) * w (ix2 k q) := by
  rw [shapeCast_self]
  exact Cert.LibPlainDot.matmul_zero_apply (M := 5000) (K := 96) (N := 96) none
    (truncf .bf16 a hlt) (truncf .bf16 w hlt) r q

/-- The lane sum. Summing y ∈ [5000, 96] over axis 1 gives, at row r, Σ_q y(r, q): the index the sum reads at lane q
    is the row index r with q inserted on axis 1, which is (r, q) coordinate by coordinate. -/
theorem laneSum_apply (y : FVec Ideal S5000x96 .f32) (hr : S5000x96.Reduces [1] S5000)
    (hφ : FKind.Formats .f32) (hacc : (0x00000000#32 : BitVec 32) = FKind.add.neutral .f32 hφ) (r : Fin 5000) :
    multiReduction (F := Ideal) .add [1] S5000 y 0x00000000#32 hr hφ hacc (ix1 r) = ∑ q : Fin 96, y (ix2 r q) := by
  refine (Ideal.multiReduction_add_single y _ hr hφ hacc (ix1 r)).trans ?_
  refine Finset.sum_congr rfl fun q _ => congrArg y (funext fun a => Fin.ext ?_)
  match a with
  | ⟨0, _⟩ => rfl
  | ⟨1, _⟩ => rfl

/-- The vector u ∈ [5000] viewed as a column [5000, 1]: entry (r, 0) is u(r), since both sit at row-major position
    r = r · 1 + 0. -/
theorem column_apply (u : FVec Ideal S5000 .f32) (hc : S5000.ShapeCasts S5000x1) (r : Fin 5000) :
    shapeCast S5000x1 u hc (ix2 r (0 : Fin 1)) = u (ix1 r) := by
  refine shapeCast_apply u hc (ix2 r (0 : Fin 1)) (ix1 r) ?_
  rw [Shape.rowMajor_val_one, Shape.rowMajor_val_two]
  show r.val = r.val * 1 + 0
  omega

/-- A column c ∈ [5000, 1] spread along the 96 lanes: entry (r, j) is c(r, 0). -/
theorem spread_apply (c : FVec Ideal S5000x1 .f32) (hb : S5000x1.Broadcasts S5000x96) (r : Fin 5000) (j : Fin 96) :
    broadcastTo S5000x96 c hb (ix2 r j) = c (ix2 r (0 : Fin 1)) :=
  broadcastTo_apply c hb (ix2 r j) (ix2 r (0 : Fin 1)) fun a => by
    match a with
    | ⟨0, _⟩ => rfl
    | ⟨1, _⟩ => rfl

/-! ## The two stages of the body -/

/-- The rectified pre-activation. For left operands a, b ∈ [5000, 96] and weights w₁, w₂ ∈ [96, 96], the sum of the
    two products, rectified against the zero word, has entry (r, q)

        max(Σ_k a(r,k) · w₁(k,q) + Σ_k b(r,k) · w₂(k,q), 0).

    A maximum and a sum of blocks read entrywise; each product is `half_apply`; a scalar spread over a block reads
    that scalar everywhere. -/
theorem rect_apply (a b : FVec Ideal S5000x96 .f32) (w₁ w₂ : FVec Ideal S96x96 .f32)
    (hw : S96x96.ShapeCasts S96x96) (hlt : FTy.bits .bf16 < FTy.bits .f32) (r : Fin 5000) (q : Fin 96) :
    maximumf
        (addf
          (matmul dot_S5000x96_S96x96_S5000x96_1_0_0_1_n_n none (truncf .bf16 a hlt)
            (truncf .bf16 (shapeCast S96x96 w₁ hw) hlt) (constant S5000x96 .f32 0x00000000#32))
          (matmul dot_S5000x96_S96x96_S5000x96_1_0_0_1_n_n none (truncf .bf16 b hlt)
            (truncf .bf16 (shapeCast S96x96 w₂ hw) hlt) (constant S5000x96 .f32 0x00000000#32)))
        (broadcast S5000x96 (Scalar.ofBits (F := Ideal) .f32 0x00000000#32)) (ix2 r q)
      = max (∑ k : Fin 96, a (ix2 r k) * w₁ (ix2 k q) + ∑ k : Fin 96, b (ix2 r k) * w₂ (ix2 k q))
          (Ideal.ofBits .f32 0x00000000#32) := by
  refine (maximumf_apply _ _ (ix2 r q)).trans ?_
  refine congrArg₂ max ((addf_apply _ _ (ix2 r q)).trans ?_) rfl
  exact congrArg₂ (fun s t : EReal => s + t) (half_apply a w₁ hw hlt r q) (half_apply b w₂ hw hlt r q)

/-- The row normalisation. Let y ∈ [5000, 96] be a block whose row r is the rectification of a row z, y(r, q) =
    max(z(q), 0) for every q. Then y divided entrywise by the spread column max(√(Σ_q y(·, q)²), ε) has, at (r, j),

        max(z(j), 0) / max(√(Σ_q max(z(q), 0)²), ε),

    the normalised row of the specification. The quotient reads entrywise; its denominator at (r, j) is the column at
    (r, 0) (`spread_apply`), a maximum of a square root and ε read entrywise; under the root the column at (r, 0) is
    the lane sum at r (`column_apply`, `laneSum_apply`) of the entrywise squares, and each y(r, q) is replaced by its
    rectified value. -/
theorem norm_apply (y : FVec Ideal S5000x96 .f32) (z : Fin 96 → EReal) (r : Fin 5000)
    (hy : ∀ q : Fin 96, y (ix2 r q) = max (z q) (Ideal.ofBits .f32 0x00000000#32))
    (hr : S5000x96.Reduces [1] S5000) (hφ : FKind.Formats .f32)
    (hacc : (0x00000000#32 : BitVec 32) = FKind.add.neutral .f32 hφ)
    (hc : S5000.ShapeCasts S5000x1) (hb : S5000x1.Broadcasts S5000x96) (j : Fin 96) :
    divf y
        (broadcastTo S5000x96
          (maximumf (sqrt (shapeCast S5000x1 (multiReduction (F := Ideal) .add [1] S5000 (mulf y y) 0x00000000#32 hr hφ hacc) hc))
            (broadcast S5000x1 (Scalar.ofBits (F := Ideal) .f32 0x2B8CBCCC#32))) hb) (ix2 r j)
      = Cert.Sage.rowNorm z j := by
  refine (divf_apply y _ (ix2 r j)).trans ?_
  unfold Cert.Sage.rowNorm
  -- numerator: y(r, j) = max(z(j), 0); denominator: the spread column at (r, j)
  refine congrArg₂ Ideal.div (hy j) ?_
  refine (spread_apply _ hb r j).trans ?_
  -- the column at (r, 0) is max(√·, ε); ε is the same word on both sides
  refine (maximumf_apply _ _ (ix2 r (0 : Fin 1))).trans (congrArg₂ max ?_ rfl)
  show Ideal.sqrt (shapeCast S5000x1 (multiReduction (F := Ideal) .add [1] S5000 (mulf y y) 0x00000000#32 hr hφ hacc) hc (ix2 r (0 : Fin 1))) = _
  refine congrArg Ideal.sqrt ?_
  -- under the root: the lane sum of y² at row r, term by term the square of the rectified z
  refine (column_apply _ hc r).trans ?_
  refine (laneSum_apply (mulf y y) hr hφ hacc r).trans ?_
  exact Finset.sum_congr rfl fun q _ =>
    (mulf_apply y y (ix2 r q)).trans (congrArg₂ (fun s t : EReal => s * t) (hy q) (hy q))

/-! ## The body's stored value at an entry -/

/-- What the body stores at (r, j) of its block: the normalised row of the pre-activation

        z(j') = Σ_k (v0(r,k) · v3(r,0)) · v9(k,j') + Σ_k v2(r,k) · v12(k,j').

    The stored term is the quotient `norm_apply` reads, over the rectified block `rect_apply` reads with left operands
    the scaled block (v0 scaled by the column v3) and v2; inside the first sum the scaled block's entry (r, k) is
    v0(r,k) · v3(r,0) by `scaled_apply`. -/
theorem pay_apply (v0 v2 : Vec Ideal S5000x96 .f32) (v3 : Vec Ideal S5000x1 .f32) (v9 v12 : Vec Ideal S96x96 .f32) (r : Fin 5000) (j : Fin 96) :
    k0_pay1 (F := Ideal) v0 v2 v3 v9 v12 (ix2 r j)
      = Cert.Sage.rowNorm (fun j' : Fin 96 => ∑ k : Fin 96, (v0 (ix2 r k) * v3 (ix2 r (0 : Fin 1))) * v9 (ix2 k j') + ∑ k : Fin 96, v2 (ix2 r k) * v12 (ix2 k j')) j := by
  unfold k0_pay1
  refine norm_apply _ _ r (fun q => ?_) _ _ _ _ _ j
  refine (rect_apply _ v2 v9 v12 _ _ r q).trans ?_
  refine congrArg₂ max (congrArg₂ (fun s t : EReal => s + t) ?_ rfl) rfl
  exact Finset.sum_congr rfl fun k _ =>
    congrArg (fun c : EReal => c * v9 (ix2 k q)) (scaled_apply v0 v3 _ _ _ r k)

end Cert.Sage.Body

end
-- ==== Proof.Blocks.lean ====
/-
  From blocks to the array: the kernel's result array is the layer's result of the program's arguments.

  The grid has ten points. Point t stages rows 5000·t .. 5000·t + 4999 of the aggregated features, of the features and
  of the reciprocal column, and the whole of each weight half; the body's value at entry (r, j) of the block is the
  normalised pre-activation of node 5000·t + r at feature j, which is the layer's result there. Point t writes its
  block back to rows 5000·t .. 5000·t + 4999 of the result array; the ten blocks tile the array (row i belongs to
  point ⌊i / 5000⌋), so after the run the array holds the layer's result everywhere.
-/
import proofs.«159012_j16415365006092_2_alg».proof.Proof.Gen.KernelIdeal.Value
import proofs.«159012_j16415365006092_2_alg».proof.Proof.Entry
import proofs.«159012_j16415365006092_2_alg».proof.Proof.Payload

set_option maxRecDepth 16384

noncomputable section

open scoped BigOperators

namespace Cert.Sage.Blocks

open Idealize.ShloMosaic Idealize.ShloMosaic.TcCoe Idealize.ShloMosaic.ValueIdx Idealize.SL.Sem
open Idealize.ShloMosaic.Pipeline (Dat)
open Cert.KernelIdeal Cert.KernelIdeal.Gen

-- The reference's aggregation and its reciprocal vector enter this module only through the equations already proved
-- about them; nothing here looks inside them.
attribute [local irreducible] Cert.ReferenceIdeal.Read.val_main_v13 Cert.ReferenceIdeal.Read.val_main_v18

/-- Row r of a block whose five operand blocks hold, at that row, node n's aggregated features, own features and
    reciprocal, and whose weight blocks hold the two halves of the transposed weights: the body's value at (r, j) is
    the layer's result at (n, j). The two row functions agree term by term, so their normalisations agree. -/
theorem block_entry (x0 x1 : Vec Ideal S5000x96 .f32) (x2 : Vec Ideal S5000x1 .f32) (x3 x4 : Vec Ideal S96x96 .f32)
    (A : (⟨2, ![50000, 96]⟩ : Shape).Idx → EReal) (v : (⟨1, ![50000]⟩ : Shape).Idx → EReal)
    (X : (⟨2, ![50000, 96]⟩ : Shape).Idx → EReal) (W : (⟨2, ![96, 192]⟩ : Shape).Idx → EReal)
    (n : Fin 50000) (r : Fin 5000) (j : Fin 96)
    (h0 : ∀ k : Fin 96, x0 (ix2 r k) = A (ix2 n k)) (h1 : ∀ k : Fin 96, x1 (ix2 r k) = X (ix2 n k))
    (h2 : x2 (ix2 r (0 : Fin 1)) = v (ix1 n))
    (h3 : ∀ k q : Fin 96, x3 (ix2 k q) = W (ix2 q (Cert.Sage.lo k))) (h4 : ∀ k q : Fin 96, x4 (ix2 k q) = W (ix2 q (Cert.Sage.hi k))) :
    k0_pay1 (F := Ideal) x0 x1 x2 x3 x4 (ix2 r j) = Cert.Sage.out A v X W (ix2 n j) := by
  refine (Cert.Sage.Body.pay_apply x0 x1 x2 x3 x4 r j).trans ?_
  rw [Cert.Sage.out_apply]
  refine congrArg (fun z => Cert.Sage.rowNorm z j) (funext fun q => ?_)
  unfold Cert.Sage.pre
  refine congrArg₂ (· + ·) (Finset.sum_congr rfl fun k _ => ?_) (Finset.sum_congr rfl fun k _ => ?_)
  · rw [h0 k, h2, h3 k q]
  · rw [h1 k, h4 k q]

variable (m : (ℓ : Loc nD τ sig) → Buf (Elt Ideal) ℓ) (ρ : Dev nD → PrngReg)

/-- The layer's result of the program's arguments on core c: the aggregation and the reciprocal are the reference's own
    terms of the arguments. -/
def G (c : Dev nD) : S50000x96.Idx → EReal :=
  Cert.Sage.out
    (Cert.ReferenceIdeal.Read.val_main_v13 (F := Ideal) (m ((c : Thread nD τ).loc main_arg0)) (m ((c : Thread nD τ).loc main_arg1)))
    (Cert.ReferenceIdeal.Read.val_main_v18 (F := Ideal) (m ((c : Thread nD τ).loc main_arg2)))
    (m ((c : Thread nD τ).loc main_arg0)) (m ((c : Thread nD τ).loc main_arg3))

theorem hz : (![0, 0] : Fin 2 → Nat) = fun _ => 0 := funext fun a => by fin_cases a <;> rfl

/-- The index maps over the ten grid points: the three row-blocked inputs and the output are at block (t, 0), the two
    weight halves at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of point t's block is node 5000·t + r. -/
def node (t : Fin cfg0.N) (r : Fin 5000) : Fin 50000 :=
  ⟨5000 * t.val + r.val, by have ht : t.val < 10 := lt_of_lt_of_eq t.isLt N_0; have := r.isLt; omega⟩

/-! ## A window's block read at an entry

A block's coordinate in its array is the block index times the block's extent plus the coordinate inside the block. -/

/-- Reading any array through the first window's block at point t: the entry's place in the array. -/
theorem read0 (f : S50000x96.Idx → EReal) (t : Fin cfg0.N) (y : S5000x96.Idx) :
    ((cfg0.win 0).blk t).view.read (Elt Ideal) f y = f (((cfg0.win 0).blk t).view.emb y) := rfl
theorem read1 (f : S50000x96.Idx → EReal) (t : Fin cfg0.N) (y : S5000x96.Idx) :
    ((cfg0.win 1).blk t).view.read (Elt Ideal) f y = f (((cfg0.win 1).blk t).view.emb y) := rfl
theorem read2 (f : S50000x1.Idx → EReal) (t : Fin cfg0.N) (y : S5000x1.Idx) :
    ((cfg0.win 2).blk t).view.read (Elt Ideal) f y = f (((cfg0.win 2).blk t).view.emb y) := rfl
theorem read3 (f : S96x96.Idx → EReal) (t : Fin cfg0.N) (y : S96x96.Idx) :
    ((cfg0.win 3).blk t).view.read (Elt Ideal) f y = f (((cfg0.win 3).blk t).view.emb y) := rfl
theorem read4 (f : S96x96.Idx → EReal) (t : Fin cfg0.N) (y : S96x96.Idx) :
    ((cfg0.win 4).blk t).view.read (Elt Ideal) f y = f (((cfg0.win 4).blk t).view.emb y) := rfl
theorem read5 (f : S50000x96.Idx → EReal) (t : Fin cfg0.N) (y : S5000x96.Idx) :
    ((cfg0.win 5).blk t).view.read (Elt Ideal) f y = f (((cfg0.win 5).blk t).view.emb y) := rfl

/-- Entry (r, k) of a row-blocked window's block at point t sits at (5000·t + r, k) of its array. -/
theorem emb0 (t : Fin cfg0.N) (r : Fin 5000) (k : Fin 96) :
    ((cfg0.win 0).blk t).view.emb (ix2 r k) = ix2 (node t r) k := by
  obtain ⟨e00, e01, -⟩ := idx_facts t
  funext a; apply Fin.ext
  match a with
  | ⟨0, _⟩ => show win0_0.index t (0 : Fin 2) * 5000 + 1 * r.val = 5000 * t.val + r.val; omega
  | ⟨1, _⟩ => show win0_0.index t (1 : Fin 2) * 96 + 1 * k.val = k.val; omega
theorem emb1 (t : Fin cfg0.N) (r : Fin 5000) (k : Fin 96) :
    ((cfg0.win 1).blk t).view.emb (ix2 r k) = ix2 (node t r) k := by
  obtain ⟨-, -, e10, e11, -⟩ := idx_facts t
  funext a; apply Fin.ext
  match a with
  | ⟨0, _⟩ => show win0_1.index t (0 : Fin 2) * 5000 + 1 * r.val = 5000 * t.val + r.val; omega
  | ⟨1, _⟩ => show win0_1.index t (1 : Fin 2) * 96 + 1 * k.val = k.val; omega
/-- Entry (r, 0) of the reciprocal column's block sits at (5000·t + r, 0). -/
theorem emb2 (t : Fin cfg0.N) (r : Fin 5000) :
    ((cfg0.win 2).blk t).view.emb (ix2 r (0 : Fin 1)) = ix2 (node t r) (0 : Fin 1) := by
  obtain ⟨-, -, -, -, e20, e21, -⟩ := idx_facts t
  funext a; apply Fin.ext
  match a with
  | ⟨0, _⟩ => show win0_2.index t (0 : Fin 2) * 5000 + 1 * r.val = 5000 * t.val + r.val; omega
  | ⟨1, _⟩ => show win0_2.index t (1 : Fin 2) * 1 + 1 * 0 = 0; omega
/-- The two weight windows have one block, the whole array, at every point. -/
theorem emb3 (t : Fin cfg0.N) (k q : Fin 96) :
    ((cfg0.win 3).blk t).view.emb (ix2 k q) = ix2 k q := by
  obtain ⟨-, -, -, -, -, -, e30, e31, -⟩ := idx_facts t
  funext a; apply Fin.ext
  match a with
  | ⟨0, _⟩ => show win0_3.index t (0 : Fin 2) * 96 + 1 * k.val = k.val; omega
  | ⟨1, _⟩ => show win0_3.index t (1 : Fin 2) * 96 + 1 * q.val = q.val; omega
theorem emb4 (t : Fin cfg0.N) (k q : Fin 96) :
    ((cfg0.win 4).blk t).view.emb (ix2 k q) = ix2 k q := by
  obtain ⟨-, -, -, -, -, -, -, -, e40, e41, -⟩ := idx_facts t
  funext a; apply Fin.ext
  match a with
  | ⟨0, _⟩ => show win0_4.index t (0 : Fin 2) * 96 + 1 * k.val = k.val; omega
  | ⟨1, _⟩ => show win0_4.index t (1 : Fin 2) * 96 + 1 * q.val = q.val; omega

/-- The block of aggregated features at point t, row r, is node 5000·t + r's row of the reference's aggregation. -/
theorem blk0_apply (c : Dev nD) (t : Fin cfg0.N) (r : Fin 5000) (k : Fin 96) :
    (iblk m c 0 t : S5000x96.Idx → EReal) (ix2 r k)
      = Cert.ReferenceIdeal.Read.val_main_v13 (F := Ideal) (m ((c : Thread nD τ).loc main_arg0)) (m ((c : Thread nD τ).loc main_arg1)) (ix2 (node t r) k) := by
  unfold iblk
  refine (read0 (V m c main_v15) t (ix2 r k)).trans ?_
  rw [emb0]
  exact congrFun (Cert.Sage.Entry.agg_eq m c) (ix2 (node t r) k)

/-- The block of own features at point t, row r, is node 5000·t + r's row of the features argument. -/
theorem blk1_apply (c : Dev nD) (t : Fin cfg0.N) (r : Fin 5000) (k : Fin 96) :
    (iblk m c 1 t : S5000x96.Idx → EReal) (ix2 r k) = (m ((c : Thread nD τ).loc main_arg0) : S50000x96.Idx → EReal) (ix2 (node t r) k) := by
  unfold iblk
  refine (read1 (V m c main_arg0) t (ix2 r k)).trans ?_
  rw [emb1]
  exact congrFun (V_main_arg0 m c) (ix2 (node t r) k)

/-- The block of the reciprocal column at point t, row r, is node 5000·t + r's reciprocal. -/
theorem blk2_apply (c : Dev nD) (t : Fin cfg0.N) (r : Fin 5000) :
    (iblk m c 2 t : S5000x1.Idx → EReal) (ix2 r (0 : Fin 1))
      = Cert.ReferenceIdeal.Read.val_main_v18 (F := Ideal) (m ((c : Thread nD τ).loc main_arg2)) (ix1 (node t r)) := by
  unfold iblk
  refine (read2 (V m c main_v21) t (ix2 r (0 : Fin 1))).trans ?_
  rw [emb2]
  exact Cert.Sage.Entry.inv_apply m c (node t r)

/-- The first weight block is the first half of the transposed weights at every point: entry (k, q) is W (q, k). -/
theorem blk3_apply (c : Dev nD) (t : Fin cfg0.N) (k q : Fin 96) :
    (iblk m c 3 t : S96x96.Idx → EReal) (ix2 k q) = (m ((c : Thread nD τ).loc main_arg3) : S96x192.Idx → EReal) (ix2 q (Cert.Sage.lo k)) := by
  unfold iblk
  refine (read3 (V m c main_v23) t (ix2 k q)).trans ?_
  rw [emb3]
  exact Cert.Sage.Entry.wt1_apply m c k q

/-- The second weight block is the second half: entry (k, q) is W (q, 96 + k). -/
theorem blk4_apply (c : Dev nD) (t : Fin cfg0.N) (k q : Fin 96) :
    (iblk m c 4 t : S96x96.Idx → EReal) (ix2 k q) = (m ((c : Thread nD τ).loc main_arg3) : S96x192.Idx → EReal) (ix2 q (Cert.Sage.hi k)) := by
  unfold iblk
  refine (read4 (V m c main_v24) t (ix2 k q)).trans ?_
  rw [emb4]
  exact Cert.Sage.Entry.wt2_apply m c k q

/-- The body's value at point t, at entry z of the block, is the layer's result at node 5000·t + z₀, feature z₁. -/
theorem body_apply (c : Dev nD) (t : Fin cfg0.N) (z : S5000x96.Idx) :
    k0_pay1 (F := Ideal) (iblk m c 0 t) (iblk m c 1 t) (iblk m c 2 t) (iblk m c 3 t) (iblk m c 4 t) z
      = G m c (ix2 (node t (z 0)) (z 1)) :=
  (congrArg (k0_pay1 (F := Ideal) (iblk m c 0 t) (iblk m c 1 t) (iblk m c 2 t) (iblk m c 3 t) (iblk m c 4 t)) (eq_ix2 z)).trans
    (block_entry (iblk m c 0 t) (iblk m c 1 t) (iblk m c 2 t) (iblk m c 3 t) (iblk m c 4 t)
      (Cert.ReferenceIdeal.Read.val_main_v13 (F := Ideal) (m ((c : Thread nD τ).loc main_arg0)) (m ((c : Thread nD τ).loc main_arg1)))
      (Cert.ReferenceIdeal.Read.val_main_v18 (F := Ideal) (m ((c : Thread nD τ).loc main_arg2)))
      (m ((c : Thread nD τ).loc main_arg0)) (m ((c : Thread nD τ).loc main_arg3))
      (node t (z 0)) (z 0) (z 1)
      (fun k => blk0_apply m c t (z 0) k) (fun k => blk1_apply m c t (z 0) k) (blk2_apply m c t (z 0))
      (fun k q => blk3_apply m c t k q) (fun k q => blk4_apply m c t k q))

/-- WHAT POINT t WRITES BACK is block t of the layer's result: the block's entry y sits at row 5000·t + y₀ of the array. -/
theorem flushed_eq (c : Dev nD) (t : Fin cfg0.N) :
    (dats m 0 c).flushed 5 t = ((cfg0.win 5).blk t).view.read (Elt Ideal) (G m c) := by
  rw [Cert.KernelIdeal.Value.flushed5]
  unfold out0_5
  rw [View.canon_unit_zero hz]
  simp only [View.ld_unit_zero (S := S5000x96) hz, View.ld_unit_zero (S := S5000x1) hz, View.ld_unit_zero (S := S96x96) hz]
  obtain ⟨-, -, -, -, -, -, -, -, -, -, e50, e51⟩ := idx_facts t
  funext y
  refine Eq.trans (body_apply m c t ((win0 5).xinj (grid0.coords t) y)) ?_
  refine Eq.trans ?_ (read5 (G m c) t y).symm
  refine congrArg (G m c) (funext fun a => Fin.ext ?_)
  match a with
  | ⟨0, _⟩ => show 5000 * t.val + (y 0).val = win0_5.index t (0 : Fin 2) * 5000 + 1 * (y 0).val; omega
  | ⟨1, _⟩ => show (y 1).val = win0_5.index t (1 : Fin 2) * 96 + 1 * (y 1).val; omega

/-- An index of the result array is in point t's block iff each coordinate is in the block's range on its axis. -/
theorem mem_blk (t : Fin cfg0.N) (i : S50000x96.Idx) :
    i ∈ ((cfg0.win 5).blk t).view.set ↔ ∀ a : Fin 2, win0_5.index t a * S5000x96.size a ≤ (i a).val ∧ (i a).val < win0_5.index t a * S5000x96.size a + S5000x96.size a := by
  show i ∈ ((View.whole main_v25).slice (win0_5.rect t)).set ↔ _
  rw [View.set_slice_whole, Rect.mem_set_unit]
  exact Iff.rfl

/-- Every entry of the result array is written back by the point of its row's block, ⌊row / 5000⌋. -/
theorem cover (i : S50000x96.Idx) : ∃ t : Fin cfg0.N, (cfg0.win 5).flush t = true ∧ i ∈ ((cfg0.win 5).blk t).view.set := by
  have hi0 : (i 0).val < 50000 := (i 0).isLt
  have hi1 : (i 1).val < 96 := (i 1).isLt
  have hN : (i 0).val / 5000 < cfg0.N := by show (i 0).val / 5000 < grid0.N; rw [N_0]; omega
  obtain ⟨-, -, -, -, -, -, -, -, -, -, e50, e51⟩ := idx_facts ⟨(i 0).val / 5000, hN⟩
  have e50' : win0_5.index ⟨(i 0).val / 5000, hN⟩ (0 : Fin 2) = (i 0).val / 5000 := e50
  refine ⟨⟨(i 0).val / 5000, hN⟩, flush0_5 _, ?_⟩
  rw [mem_blk]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    omega
  | ⟨1, _⟩ =>
    show win0_5.index ⟨(i 0).val / 5000, hN⟩ (1 : Fin 2) * 96 ≤ (i 1).val ∧ (i 1).val < win0_5.index ⟨(i 0).val / 5000, hN⟩ (1 : Fin 2) * 96 + 96
    omega

/-- THE RESULT ARRAY after the run is the layer's result of the arguments. -/
theorem final (c : Dev nD) : (dats m 0 c).arrAt 5 cfg0.N = G m c :=
  (dats m 0 c).arrAt_eq_of_cover 5 (G m c) (fun t _ => flushed_eq m c t) cover

/-- The kernel's run: it ends with the result array at the layer's result of the arguments, the arguments unchanged. -/
theorem run : θ_run defs (onTc (τ := τ) (main (F := Ideal))) ⟨m, fun _ => 0, ρ⟩ fun r => ∀ c : Dev nD,
      r.2.mem ((c : Thread nD τ).loc main_v25) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Sage.Blocks

end
-- ==== Proof.lean ====
/-
  A GraphSAGE layer on 50000 nodes: the kernel equals its reference on the extended reals.

  Both programs aggregate, for every node n, the features of its in-neighbours, A(n, ·) ∈ [96] (a gather of source rows
  scatter-added into destination rows), scale it by the reciprocal v(n) of the degree clipped below at one, and form

      pre(n, j) = Σ_{k<192} cat(n, k) · W(j, k),     cat(n, ·) = [A(n, ·) · v(n), X(n, ·)],

  then rectify the row and divide it by the larger of its Euclidean norm and a fixed positive threshold. The reference
  concatenates and multiplies once. The kernel rounds the features to bf16 before the gather and widens them after it,
  which on the extended reals is the identity; it then works on ten blocks of 5000 nodes, multiplying the scaled
  aggregate by rows 0..95 of Wᵀ and the node's own features by rows 96..191 and adding the two products. The two sides
  meet at one function of the arguments (Spec): the reference is that function by reading its operations at an index
  and splitting the 192-term sum at 96 (RefValue); the kernel's body computes it on each block (Payload) of the arrays
  the region finds (Entry), and the ten blocks tile the result (Blocks). The split of a finite sum holds in any
  commutative additive monoid, so no finiteness of the inputs is used: the precondition is never opened.
  The idealization rewrote nothing, so the kernel's own text read on the extended reals is its idealization.
-/
import proofs.«159012_j16415365006092_2_alg».proof.Defs
import proofs.«159012_j16415365006092_2_alg».proof.Proof.Gen.Kernel
import proofs.«159012_j16415365006092_2_alg».proof.Proof.Gen.Kernel.Skeleton
import proofs.«159012_j16415365006092_2_alg».proof.Proof.Gen.Kernel.Launch
import proofs.«159012_j16415365006092_2_alg».proof.Proof.Gen.Kernel.Points
import proofs.«159012_j16415365006092_2_alg».proof.Proof.Gen.Kernel.Frame
import proofs.«159012_j16415365006092_2_alg».proof.Proof.Gen.KernelIdeal
import proofs.«159012_j16415365006092_2_alg».proof.Proof.Gen.KernelIdeal.Skeleton
import proofs.«159012_j16415365006092_2_alg».proof.Proof.Gen.KernelIdeal.Launch
import proofs.«159012_j16415365006092_2_alg».proof.Proof.Gen.KernelIdeal.Points
import proofs.«159012_j16415365006092_2_alg».proof.Proof.Gen.KernelIdeal.Frame
import proofs.«159012_j16415365006092_2_alg».proof.Proof.Gen.ReferenceIdeal
import proofs.«159012_j16415365006092_2_alg».proof.Proof.Gen.Pre_finite_inputs
import proofs.«159012_j16415365006092_2_alg».proof.Proof.Gen.KernelIdeal.Value
import proofs.«159012_j16415365006092_2_alg».proof.Proof.Gen.ReferenceIdeal.Run
import proofs.«159012_j16415365006092_2_alg».proof.Proof.Gen.ReferenceIdeal.Read
import proofs.«159012_j16415365006092_2_alg».proof.Proof.RefValue
import proofs.«159012_j16415365006092_2_alg».proof.Proof.Blocks
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the four arguments, the kernel's result array and the reference's both end at the layer's
    result of those arguments: the kernel's by the blocks tiling the array, the reference's by reading its operations
    at an index and splitting the 192-term sum at 96. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Sage.Blocks.G m c, Cert.Sage.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.Sage.Ref.ref_eq, (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
